-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 29
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1x64, .f32⟩
  | .hbm, ⟨27, _⟩ => ⟨S1x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_cst : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Grid.lean ====
/-
  The grid of 20 points and the block each window stages at a point.

  At point `t` the node features, the neighbourhood sums and the result are on block row `t` of their 100000 × 64
  arrays (rows `5000 t … 5000 t + 4999`); the two 64 × 64 matrices and the two 1 × 64 bias rows are on their one block.
-/
import proofs.«164053_j88364657148500_1_alg».proof.Proof.Gen.KernelIdeal.Frame
import Idealize.ShloMosaic.Lib.ValueIdx

set_option Elab.async false

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- The printed index maps over the 20 points: the three node windows sit on block row `t`, column block 0; the
    matrices and bias rows on their one block. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem points : cfg0.N = 20 := N_0

/-- Row `p` of block `t` is a node. -/
theorem node_lt (t : Fin cfg0.N) (p : Fin 5000) : t.val * 5000 + p.val < 100000 := by
  have ht : t.val < 20 := Nat.lt_of_lt_of_eq t.isLt points
  have hp := p.isLt
  omega

/-- The node that row `p` of block `t` is. -/
abbrev node (t : Fin cfg0.N) (p : Fin 5000) : Fin 100000 := ⟨t.val * 5000 + p.val, node_lt t p⟩

end Cert.KernelIdeal.Whole

end
-- ==== Proof.Entry.lean ====
/-
  What the kernel's launch finds in the three arrays the host wrote before it.

  Before the blocks are launched the host gathers a feature row per edge source, takes positive parts, and adds each
  edge's row into its target node's row of a zero array: the neighbourhood sums. It also re-lays each bias, 64 entries,
  as one row of 64. The reference program begins with the very same operations on the same arguments, so the
  neighbourhood sums found here ARE the reference's own neighbourhood-sum stage of the launch arguments: the gather and
  the scatter are never opened, on either side.
-/
import proofs.«164053_j88364657148500_1_alg».proof.Proof.Gen.KernelIdeal.Frame
import proofs.«164053_j88364657148500_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbourhood sums the launch finds are the reference's neighbourhood-sum stage of the features and the edge
    list as launched. -/
theorem sums_entry (c : Dev nD) :
    (V m c main_v14 : S100000x64.Idx → EReal)
      = Cert.ReferenceIdeal.Read.val_main_v14 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results
  rfl

/-- The first bias row the launch finds is the first bias re-laid as one row. -/
theorem bias1_entry (c : Dev nD) :
    (V m c main_v15 : S1x64.Idx → EReal)
      = shapeCast S1x64 (m ((c : Thread nD τ).loc main_arg3) : S64.Idx → EReal) shapeCasts_S64_S1x64 := by
  dsimp only [V]
  simp only [hostOps0, hostOps0_1, hostOps0_2, List.flatten_cons, List.flatten_nil, List.append_nil, List.cons_append,
    List.nil_append]
  after_results
  rfl

/-- The second bias row the launch finds is the second bias re-laid as one row. -/
theorem bias2_entry (c : Dev nD) :
    (V m c main_v16 : S1x64.Idx → EReal)
      = shapeCast S1x64 (m ((c : Thread nD τ).loc main_arg5) : S64.Idx → EReal) shapeCasts_S64_S1x64 := by
  dsimp only [V]
  simp only [hostOps0, hostOps0_1, hostOps0_2, List.flatten_cons, List.flatten_nil, List.append_nil, List.cons_append,
    List.nil_append]
  after_results
  rfl

/-! ## The same three facts, with each array named as the window that stages it -/

/-- Window 1 stages the neighbourhood sums. -/
theorem sums_window (c : Dev nD) :
    (V m c (Pipeline.arrRef spec0 1) : S100000x64.Idx → EReal)
      = Cert.ReferenceIdeal.Read.val_main_v14 (F := Ideal) (m ((c : Thread nD τ).loc main_arg0)) (m ((c : Thread nD τ).loc main_arg1)) :=
  sums_entry m c

/-- Window 3 stages the first bias row. -/
theorem bias1_window (c : Dev nD) :
    (V m c (Pipeline.arrRef spec0 3) : S1x64.Idx → EReal)
      = shapeCast S1x64 (m ((c : Thread nD τ).loc main_arg3) : S64.Idx → EReal) shapeCasts_S64_S1x64 :=
  bias1_entry m c

/-- Window 5 stages the second bias row. -/
theorem bias2_window (c : Dev nD) :
    (V m c (Pipeline.arrRef spec0 5) : S1x64.Idx → EReal)
      = shapeCast S1x64 (m ((c : Thread nD τ).loc main_arg5) : S64.Idx → EReal) shapeCasts_S64_S1x64 :=
  bias2_entry m c

end Cert.KernelIdeal.Entry

end
-- ==== Proof.Staged.lean ====
/-
  The staged blocks, read off their arrays.

  A window's block at point `t` is its array read through a rectangle: for the two node windows rows
  `5000 t … 5000 t + 4999`, so row `p` of the block is node `5000 t + p` of the array; for the matrices and the bias rows
  the whole array. This holds of any array's contents; it is then said of the arrays the launch finds: the features and
  the matrices as launched, the neighbourhood sums, and each bias row, which is the bias re-laid as one row and so holds
  the bias's 64 entries.
-/
import proofs.«164053_j88364657148500_1_alg».proof.Proof.Grid
import proofs.«164053_j88364657148500_1_alg».proof.Proof.Entry
import Idealize.ShloMosaic.Lib.Pipeline.Value
import Idealize.ShloMosaic.Lib.ValueLayout

set_option Elab.async false

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## A block of any array -/

/-- Row `p` of the feature window's block at point `t` is row `5000 t + p` of the array. -/
theorem feature_rows (X : S100000x64.Idx → EReal) (t : Fin cfg0.N) (p : Fin 5000) (j : Fin 64) :
    (((cfg0.win 0).blk t).view.read (Elt Ideal) X : Vec Ideal S5000x64 .f32) (ix2 p j) = X (ix2 (node t p) j) := by
  obtain ⟨e0, e1, -⟩ := block_of_point t
  rw [View.read_apply]
  show X _ = _
  refine congrArg X (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * j.val = j.val; rw [e1]; omega

/-- Row `p` of the neighbourhood-sum window's block at point `t` is row `5000 t + p` of the array. -/
theorem sum_rows (X : S100000x64.Idx → EReal) (t : Fin cfg0.N) (p : Fin 5000) (j : Fin 64) :
    (((cfg0.win 1).blk t).view.read (Elt Ideal) X : Vec Ideal S5000x64 .f32) (ix2 p j) = X (ix2 (node t p) j) := by
  obtain ⟨-, -, e0, e1, -⟩ := block_of_point t
  rw [View.read_apply]
  show X _ = _
  refine congrArg X (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 64 + 1 * j.val = j.val; rw [e1]; omega

/-- The first matrix's window stages the whole matrix at every point. -/
theorem first_matrix_whole (X : S64x64.Idx → EReal) (t : Fin cfg0.N) (j k : Fin 64) :
    (((cfg0.win 2).blk t).view.read (Elt Ideal) X : Vec Ideal S64x64 .f32) (ix2 j k) = X (ix2 j k) := by
  obtain ⟨-, -, -, -, e0, e1, -⟩ := block_of_point t
  rw [View.read_apply]
  show X _ = _
  refine congrArg X (funext fun a => Fin.ext ?_)
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- The first bias row's window stages the whole row at every point. -/
theorem first_bias_whole (X : S1x64.Idx → EReal) (t : Fin cfg0.N) (k : Fin 64) :
    (((cfg0.win 3).blk t).view.read (Elt Ideal) X : Vec Ideal S1x64 .f32) (ix2 (0 : Fin 1) k) = X (ix2 (0 : Fin 1) k) := by
  obtain ⟨-, -, -, -, -, -, e0, e1, -⟩ := block_of_point t
  rw [View.read_apply]
  show X _ = _
  refine congrArg X (funext fun a => Fin.ext ?_)
  match a with
  | ⟨0, _⟩ => show win0_3.index t (0 : Fin 2) * 1 + 1 * 0 = 0; rw [e0]
  | ⟨1, _⟩ => show win0_3.index t (1 : Fin 2) * 64 + 1 * k.val = k.val; rw [e1]; omega

/-- The second matrix's window stages the whole matrix at every point. -/
theorem second_matrix_whole (X : S64x64.Idx → EReal) (t : Fin cfg0.N) (j k : Fin 64) :
    (((cfg0.win 4).blk t).view.read (Elt Ideal) X : Vec Ideal S64x64 .f32) (ix2 j k) = X (ix2 j k) := by
  obtain ⟨-, -, -, -, -, -, -, -, e0, e1, -⟩ := block_of_point t
  rw [View.read_apply]
  show X _ = _
  refine congrArg X (funext fun a => Fin.ext ?_)
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- The second bias row's window stages the whole row at every point. -/
theorem second_bias_whole (X : S1x64.Idx → EReal) (t : Fin cfg0.N) (k : Fin 64) :
    (((cfg0.win 5).blk t).view.read (Elt Ideal) X : Vec Ideal S1x64 .f32) (ix2 (0 : Fin 1) k) = X (ix2 (0 : Fin 1) k) := by
  obtain ⟨-, -, -, -, -, -, -, -, -, -, e0, e1, -⟩ := block_of_point t
  rw [View.read_apply]
  show X _ = _
  refine congrArg X (funext fun a => Fin.ext ?_)
  match a with
  | ⟨0, _⟩ => show win0_5.index t (0 : Fin 2) * 1 + 1 * 0 = 0; rw [e0]
  | ⟨1, _⟩ => show win0_5.index t (1 : Fin 2) * 64 + 1 * k.val = k.val; rw [e1]; omega

/-! ## The blocks of the arrays the launch finds -/

variable (m : (ℓ : Loc nD τ sig) → Buf (Elt Ideal) ℓ) (ρ : Dev nD → PrngReg)

/-- The feature block at point `t`: its row `p` is the features of node `5000 t + p`, as launched. -/
theorem features_block (c : Dev nD) (t : Fin cfg0.N) (p : Fin 5000) (j : Fin 64) :
    (iblk m c 0 t : Vec Ideal S5000x64 .f32) (ix2 p j) = (m ((c : Thread nD τ).loc main_arg0) : S100000x64.Idx → EReal) (ix2 (node t p) j) :=
  (feature_rows (V m c (Pipeline.arrRef spec0 0)) t p j).trans (congrFun (V_main_arg0 m c) (ix2 (node t p) j))

/-- The neighbourhood-sum block at point `t`: its row `p` is the sums of node `5000 t + p`. -/
theorem sums_block (c : Dev nD) (t : Fin cfg0.N) (p : Fin 5000) (j : Fin 64) :
    (iblk m c 1 t : Vec Ideal S5000x64 .f32) (ix2 p j) = (V m c (Pipeline.arrRef spec0 1) : S100000x64.Idx → EReal) (ix2 (node t p) j) :=
  sum_rows (V m c (Pipeline.arrRef spec0 1)) t p j

/-- The first matrix's block is the first matrix as launched. -/
theorem first_matrix_block (c : Dev nD) (t : Fin cfg0.N) (j k : Fin 64) :
    (iblk m c 2 t : Vec Ideal S64x64 .f32) (ix2 j k) = (m ((c : Thread nD τ).loc main_arg2) : S64x64.Idx → EReal) (ix2 j k) :=
  (first_matrix_whole (V m c (Pipeline.arrRef spec0 2)) t j k).trans (congrFun (V_main_arg2 m c) (ix2 j k))

/-- The second matrix's block is the second matrix as launched. -/
theorem second_matrix_block (c : Dev nD) (t : Fin cfg0.N) (j k : Fin 64) :
    (iblk m c 4 t : Vec Ideal S64x64 .f32) (ix2 j k) = (m ((c : Thread nD τ).loc main_arg4) : S64x64.Idx → EReal) (ix2 j k) :=
  (second_matrix_whole (V m c (Pipeline.arrRef spec0 4)) t j k).trans (congrFun (V_main_arg4 m c) (ix2 j k))

/-- The first bias row's block holds the first bias as launched. -/
theorem first_bias_block (c : Dev nD) (t : Fin cfg0.N) (k : Fin 64) :
    (iblk m c 3 t : Vec Ideal S1x64 .f32) (ix2 (0 : Fin 1) k) = (m ((c : Thread nD τ).loc main_arg3) : S64.Idx → EReal) (ix1 k) :=
  (first_bias_whole (V m c (Pipeline.arrRef spec0 3)) t k).trans
    ((congrFun (Entry.bias1_window m c) (ix2 (0 : Fin 1) k)).trans (shapeCast_a_1a_apply _ shapeCasts_S64_S1x64 (0 : Fin 1) k))

/-- The second bias row's block holds the second bias as launched. -/
theorem second_bias_block (c : Dev nD) (t : Fin cfg0.N) (k : Fin 64) :
    (iblk m c 5 t : Vec Ideal S1x64 .f32) (ix2 (0 : Fin 1) k) = (m ((c : Thread nD τ).loc main_arg5) : S64.Idx → EReal) (ix1 k) :=
  (second_bias_whole (V m c (Pipeline.arrRef spec0 5)) t k).trans
    ((congrFun (Entry.bias2_window m c) (ix2 (0 : Fin 1) k)).trans (shapeCast_a_1a_apply _ shapeCasts_S64_S1x64 (0 : Fin 1) k))

end Cert.KernelIdeal.Whole

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Payload.lean ====
/-
  What the kernel body computes for one block of 5000 node rows, entry by entry.

  The body adds the block's feature rows and neighbourhood-sum rows, multiplies the sum by the first weight matrix,
  adds the first bias row, takes the positive part, multiplies by the second matrix, adds the second bias row and takes
  the positive part again. Each product contracts one axis of length 64, so it is a sum over one coordinate; the two
  narrowings to the short float format are the identity on extended reals; the bias row is one row repeated over the
  block; and the positive part is the maximum with the zero word, which denotes 0. Row `p` of the result depends on
  row `p` of the two node blocks only.
-/
import proofs.«164053_j88364657148500_1_alg».proof.Proof.Gen.KernelIdeal.Skeleton
import proofs.«164053_j88364657148500_1_alg».proof.Proof.LibContract
import Idealize.ShloMosaic.Lib.ValueLayout

noncomputable section

namespace Cert.KernelIdeal.Block

open Cert.KernelIdeal Cert.KernelIdeal.Gen Idealize.ShloMosaic Idealize.ShloMosaic.ValueIdx

/-! ## The product's operand indices -/

/-- The left operand is read on the output's row. -/
theorem lhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- and at the contracted coordinate along its columns. -/
theorem lhs_col (i : S5000x64.Idx) (κ : dot_S5000x64_S64x64_S5000x64_1_0_0_1_n_n.contr.Idx) :
    (dot_S5000x64_S64x64_S5000x64_1_0_0_1_n_n.lhsIdx i κ 1).val = (κ ⟨0, by decide⟩).val :=
  dot_S5000x64_S64x64_S5000x64_1_0_0_1_n_n.lhsIdx_val_of_single rfl i κ

/-- The right operand is read at the contracted coordinate along its rows -/
theorem rhs_row (i : S5000x64.Idx) (κ : dot_S5000x64_S64x64_S5000x64_1_0_0_1_n_n.contr.Idx) :
    (dot_S5000x64_S64x64_S5000x64_1_0_0_1_n_n.rhsIdx i κ 0).val = (κ ⟨0, by decide⟩).val :=
  dot_S5000x64_S64x64_S5000x64_1_0_0_1_n_n.rhsIdx_val_of_single rfl i κ

/-- and on the output's column. -/
theorem rhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- For the output entry `(p, q)` and the contracted coordinate `k` the left factor sits at `(p, k)`, -/
theorem lhs_at (p : Fin 5000) (q k : Fin 64) :
    dot_S5000x64_S64x64_S5000x64_1_0_0_1_n_n.lhsIdx (ix2 p q) ((contrEquiv1 dot_S5000x64_S64x64_S5000x64_1_0_0_1_n_n 64 rfl rfl).symm k) = ix2 p k :=
  funext fun a => Fin.ext (by
    match a with
    | ⟨0, _⟩ => exact lhs_row _ _
    | ⟨1, _⟩ => exact (lhs_col _ _).trans (contrEquiv1_symm_val dot_S5000x64_S64x64_S5000x64_1_0_0_1_n_n 64 rfl rfl k))

/-- and the right factor at `(k, q)`. -/
theorem rhs_at (p : Fin 5000) (q k : Fin 64) :
    dot_S5000x64_S64x64_S5000x64_1_0_0_1_n_n.rhsIdx (ix2 p q) ((contrEquiv1 dot_S5000x64_S64x64_S5000x64_1_0_0_1_n_n 64 rfl rfl).symm k) = ix2 k q :=
  funext fun a => Fin.ext (by
    match a with
    | ⟨0, _⟩ => exact (rhs_row _ _).trans (contrEquiv1_symm_val dot_S5000x64_S64x64_S5000x64_1_0_0_1_n_n 64 rfl rfl k)
    | ⟨1, _⟩ => exact rhs_col _ _)

/-! ## A block of rows times a matrix -/

/-- The product of a 5000 × 64 block with a 64 × 64 matrix, started from zero: entry `(p, q)` is row `p` of the block
    against column `q` of the matrix. -/
theorem rows_times (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) :=
  ContractSingle.matmul_zero_single dot_S5000x64_S64x64_S5000x64_1_0_0_1_n_n none 64 rfl rfl a w (ix2 p q)
    (fun k => a (ix2 p k)) (fun k => w (ix2 k q))
    (fun k => congrArg a (lhs_at p q k)) (fun k => congrArg w (rhs_at p q k))

/-- The zero word, as the scalar the positive part compares with, denotes 0. -/
theorem zero_word : Scalar.ofBits (F := Ideal) .f32 0x00000000#32 = (0 : EReal) := by
  show Ideal.ofBits .f32 0x00000000#32 = 0
  exact Ideal.ofBits_zero_f32

/-! ## The body's result at an entry -/

/-- The body's stored value at row `p`, unit `q` of the block, from the six loaded blocks: the two dense layers with
    their positive parts, of row `p` of the summed node blocks. -/
theorem pay_at (x0 x1 : Vec Ideal S5000x64 .f32) (w1 : Vec Ideal S64x64 .f32) (c1 : Vec Ideal S1x64 .f32)
    (w2 : Vec Ideal S64x64 .f32) (c2 : Vec Ideal S1x64 .f32) (p : Fin 5000) (q : Fin 64) :
    k0_pay1 (F := Ideal) x0 x1 w1 c1 w2 c2 (ix2 p q)
      = max ((∑ k : Fin 64,
              max ((∑ j : Fin 64, (x0 (ix2 p j) + x1 (ix2 p j)) * w1 (ix2 j k)) + c1 (ix2 (0 : Fin 1) k)) 0
                * w2 (ix2 k q)) + c2 (ix2 (0 : Fin 1) q)) 0 := by
  unfold k0_pay1
  simp only [maximumf_apply, addf_apply, rows_times, truncf_apply, broadcast_apply, shapeCast_self,
    broadcastTo_1b_ab_apply, zero_word]

end Cert.KernelIdeal.Block

end
-- ==== Proof.Layer.lean ====
/-
  One graph-isomorphism layer on 100000 nodes of width 64, as a function of its arrays, entry by entry.

  Given the node features `x`, the neighbourhood sums `agg` (both 100000 × 64), two 64 × 64 weight matrices and two
  bias rows, node `r` first forms the row `x r + agg r`; the hidden unit `k` is the positive part of that row
  against column `k` of the first matrix plus the first bias at `k`; the output at `(r, c)` is the positive part of the
  hidden row against column `c` of the second matrix plus the second bias at `c`. Everything is over the extended
  reals; no entry of one node's row depends on another node, which is why any split of the nodes into blocks of rows
  computes the same array.
-/
import Idealize.ShloMosaic.PureOps.Ideal.Laws
import Idealize.ShloMosaic.Lib.ValueIdx

noncomputable section

namespace Cert.Layer

open Idealize.ShloMosaic Idealize.ShloMosaic.ValueIdx

/-- Node features and neighbourhood sums: one row of 64 per node. -/
abbrev Nodes : Shape := ⟨2, ![100000, 64]⟩
/-- A dense layer's matrix, input unit by output unit. -/
abbrev Weights : Shape := ⟨2, ![64, 64]⟩
/-- A dense layer's bias, one entry per output unit. -/
abbrev Bias : Shape := ⟨1, ![64]⟩

/-- Hidden unit `k` of node `r`: the positive part of `∑ j, (x r j + agg r j) · W1 j k + b1 k`. -/
def hidden (x agg : Nodes.Idx → EReal) (W1 : Weights.Idx → EReal) (b1 : Bias.Idx → EReal) (r : Fin 100000) (k : Fin 64) : EReal :=
  max ((∑ j : Fin 64, (x (ix2 r j) + agg (ix2 r j)) * W1 (ix2 j k)) + b1 (ix1 k)) 0

/-- The layer's output array: at `(r, c)` the positive part of `∑ k, hidden r k · W2 k c + b2 c`. -/
def out (x agg : Nodes.Idx → EReal) (W1 : Weights.Idx → EReal) (b1 : Bias.Idx → EReal) (W2 : Weights.Idx → EReal)
    (b2 : Bias.Idx → EReal) : Nodes.Idx → EReal := fun i =>
  max ((∑ k : Fin 64, hidden x agg W1 b1 (i 0) k * W2 (ix2 k (i 1))) + b2 (ix1 (i 1))) 0

/-- The output read at a node `r` and a unit `c`. -/
theorem out_ix2 (x agg : Nodes.Idx → EReal) (W1 : Weights.Idx → EReal) (b1 : Bias.Idx → EReal) (W2 : Weights.Idx → EReal)
    (b2 : Bias.Idx → EReal) (r : Fin 100000) (c : Fin 64) :
    out x agg W1 b1 W2 b2 (ix2 r c)
      = max ((∑ k : Fin 64, hidden x agg W1 b1 r k * W2 (ix2 k c)) + b2 (ix1 c)) 0 := rfl

end Cert.Layer

end
-- ==== Proof.Written.lean ====
/-
  What a point writes back.

  The body's entry `(p, q)` at point `t` is the two dense layers of row `p` of the staged node blocks, that is of node
  `5000 t + p` of the whole arrays; and entry `(p, q)` of the result block sits at node `5000 t + p`, unit `q` of the result
  array. So what point `t` writes back is block `t` of ONE array: the layer function of the arrays the launch finds.
-/
import proofs.«164053_j88364657148500_1_alg».proof.Proof.Gen.KernelIdeal.Value
import proofs.«164053_j88364657148500_1_alg».proof.Proof.Staged
import proofs.«164053_j88364657148500_1_alg».proof.Proof.Payload
import proofs.«164053_j88364657148500_1_alg».proof.Proof.Layer
import Idealize.ShloMosaic.Lib.Pipeline.Value

set_option Elab.async false

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## A block of rows as block `t` of an array -/

/-- Entry `(p, q)` of the result block at point `t` sits at node `5000 t + p`, unit `q` of the result array. -/
theorem result_block_at (t : Fin cfg0.N) (p : Fin 5000) (q : Fin 64) :
    ((cfg0.win 6).blk t).view.emb (ix2 p q : S5000x64.Idx) = (ix2 (node t p) q : S100000x64.Idx) := by
  obtain ⟨-, -, -, -, -, -, -, -, -, -, -, -, e0, e1⟩ := block_of_point t
  refine funext fun a => Fin.ext ?_
  match a with
  | ⟨0, _⟩ => show win0_6.index t (0 : Fin 2) * 5000 + 1 * p.val = t.val * 5000 + p.val; rw [e0]; omega
  | ⟨1, _⟩ => show win0_6.index t (1 : Fin 2) * 64 + 1 * q.val = q.val; rw [e1]; omega

/-- A block `B` of 5000 rows whose row `p` is row `5000 t + p` of an array `R` is, written back at point `t`, block `t`
    of `R`. -/
theorem written_is_block (B : Vec Ideal S5000x64 .f32) (R : S100000x64.Idx → EReal) (t : Fin cfg0.N)
    (h : ∀ (p : Fin 5000) (q : Fin 64), B (ix2 p q) = R (ix2 (node t p) q)) :
    (cfg0.win 6).cut (grid0.coords t) B = ((cfg0.win 6).blk t).view.read (Elt Ideal) R := by
  funext y
  obtain ⟨p, q, rfl⟩ : ∃ (p : Fin 5000) (q : Fin 64), y = ix2 p q := ⟨y 0, y 1, eq_ix2 y⟩
  rw [View.read_apply]
  show B (ix2 p q) = R (((cfg0.win 6).blk t).view.emb (ix2 p q : S5000x64.Idx))
  rw [result_block_at t p q]
  exact h p q

/-! ## The kernel's blocks -/

variable (m : (ℓ : Loc nD τ sig) → Buf (Elt Ideal) ℓ) (ρ : Dev nD → PrngReg)

/-- The layer function of the arrays as launched, the neighbourhood sums those the launch finds in their window. -/
abbrev result (c : Dev nD) : S100000x64.Idx → EReal :=
  Cert.Layer.out (m ((c : Thread nD τ).loc main_arg0)) (V m c (Pipeline.arrRef spec0 1)) (m ((c : Thread nD τ).loc main_arg2))
    (m ((c : Thread nD τ).loc main_arg3)) (m ((c : Thread nD τ).loc main_arg4)) (m ((c : Thread nD τ).loc main_arg5))

/-- The body's result at point `t`, entry `(p, q)`, is the layer function at node `5000 t + p`, unit `q`. -/
theorem body_at (c : Dev nD) (t : Fin cfg0.N) (p : Fin 5000) (q : Fin 64) :
    k0_pay1 (F := Ideal) (iblk m c 0 t) (iblk m c 1 t) (iblk m c 2 t) (iblk m c 3 t) (iblk m c 4 t) (iblk m c 5 t) (ix2 p q)
      = result m c (ix2 (node t p) q) := by
  refine (Block.pay_at (iblk m c 0 t) (iblk m c 1 t) (iblk m c 2 t) (iblk m c 3 t) (iblk m c 4 t) (iblk m c 5 t) p q).trans ?_
  refine Eq.trans ?_ (Cert.Layer.out_ix2 _ _ _ _ _ _ (node t p) q).symm
  unfold Cert.Layer.hidden
  simp only [features_block m c t, sums_block m c t, first_matrix_block m c t, second_matrix_block m c t,
    first_bias_block m c t, second_bias_block m c t]

/-- WHAT POINT `t` WRITES BACK is block `t` of the layer function of the arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zero_offsets]
  simp only [View.ld_unit_zero (S := S5000x64) zero_offsets, View.ld_unit_zero (S := S64x64) zero_offsets,
    View.ld_unit_zero (S := S1x64) zero_offsets]
  exact written_is_block _ (result m c) t (body_at m c t)

end Cert.KernelIdeal.Whole

end
-- ==== Proof.Tiling.lean ====
/-
  The 20 blocks tile the result array, so after the run it is the layer function everywhere.

  Row `r` of the result array lies in the block of point `r / 5000`, and every point writes its block back. With what
  each point writes (block `t` of the layer function) that fixes the whole array; the neighbourhood sums the launch
  found are the reference's own stage of the launch arguments.
-/
import proofs.«164053_j88364657148500_1_alg».proof.Proof.Written
import Idealize.ShloMosaic.Lib.Pipeline.Value

set_option Elab.async false

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The blocks tile the array -/

/-- An index of the result array is in point `t`'s block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v17).slice (win0_6.rect t)).set ↔ _
  rw [View.set_slice_whole, Rect.mem_set_unit]
  exact Iff.rfl

/-- Every index of the result array is in the block of the point its row's quotient by 5000 names. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by have h20 := points; omega⟩
  have ht : t.val = (i 0).val / 5000 := rfl
  obtain ⟨-, -, -, -, -, -, -, -, -, -, -, -, e0, e1⟩ := block_of_point t
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-! ## The array after the run -/

/-- The result array after the run is the layer function of the arrays, the neighbourhood sums those the launch finds. -/
theorem final (c : Dev nD) : (dats m 0 c).arrAt 6 cfg0.N = result m c :=
  (dats m 0 c).arrAt_eq_of_cover 6 (result m c) (fun t _ => flushed_eq m c t) covered

/-- The neighbourhood sums the launch finds in their window are the reference's stage of the launch arguments: the layer
    function of the one is the layer function of the other. -/
theorem sums_are_reference (c : Dev nD) :
    result m c
      = Cert.Layer.out (m ((c : Thread nD τ).loc main_arg0))
          (Cert.ReferenceIdeal.Read.val_main_v14 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) :=
  congrArg (fun A => Cert.Layer.out (m ((c : Thread nD τ).loc main_arg0)) A (m ((c : Thread nD τ).loc main_arg2))
    (m ((c : Thread nD τ).loc main_arg3)) (m ((c : Thread nD τ).loc main_arg4)) (m ((c : Thread nD τ).loc main_arg5)))
    (Entry.sums_window m c)

/-- The kernel's run: the result array at the layer function of the launch arguments, with the reference's
    neighbourhood-sum stage of the features and the edge list for the sums; the arguments unchanged. -/
theorem run : θ_run defs (onTc (τ := τ) (main (F := Ideal))) ⟨m, fun _ => 0, ρ⟩ fun r => ∀ c : Dev nD,
      r.2.mem ((c : Thread nD τ).loc main_v17)
        = Cert.Layer.out (m ((c : Thread nD τ).loc main_arg0))
            (Cert.ReferenceIdeal.Read.val_main_v14 (F := Ideal) (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (sums_are_reference m c)), (h c).2⟩)
    (Value.run_blocks m ρ)

end Cert.KernelIdeal.Whole

end
-- ==== Proof.Dense.lean ====
/-
  The reference program's result is the layer function of its arguments.

  After forming the neighbourhood sums the reference multiplies the features by the constant one, adds the sums, and
  applies the two dense layers to the whole 100000 × 64 array at once. Read at node `r` and unit `c`, each matrix
  product is a sum over the one contracted coordinate, each bias is the same 64 entries on every row, each positive part
  is the maximum with 0, and `1 · x = x` on the extended reals: the entry is the layer function's, with the reference's
  own neighbourhood-sum stage in the place of the sums.
-/
import proofs.«164053_j88364657148500_1_alg».proof.Proof.Gen.ReferenceIdeal.Read
import proofs.«164053_j88364657148500_1_alg».proof.Proof.Layer
import Idealize.ShloMosaic.Lib.IdealHost

noncomputable section

namespace Cert.ReferenceIdeal.Dense

open Cert.ReferenceIdeal Cert.ReferenceIdeal.Gen Cert.ReferenceIdeal.Read Idealize.ShloMosaic Idealize.ShloMosaic.ValueIdx

/-! ## Where each stage reads its operands, for the entry at node `r`, unit `c` -/

/-- The first product's left factor for the contracted coordinate `k` is the summed row's entry `k`, -/
theorem first_left (r : Fin 100000) (c k : Fin 64) : lidx_main_v18 (ix2 r c) k = ix2 r k :=
  funext fun a => Fin.ext (by match a with | ⟨0, _⟩ => rfl | ⟨1, _⟩ => rfl)

/-- its right factor the first matrix's entry `(k, c)`. -/
theorem first_right (r : Fin 100000) (c k : Fin 64) : ridx_main_v18 (ix2 r c) k = ix2 k c :=
  funext fun a => Fin.ext (by match a with | ⟨0, _⟩ => rfl | ⟨1, _⟩ => rfl)

/-- The second product's left factor is the hidden row's entry `k`, -/
theorem second_left (r : Fin 100000) (c k : Fin 64) : lidx_main_v23 (ix2 r c) k = ix2 r k :=
  funext fun a => Fin.ext (by match a with | ⟨0, _⟩ => rfl | ⟨1, _⟩ => rfl)

/-- its right factor the second matrix's entry `(k, c)`. -/
theorem second_right (r : Fin 100000) (c k : Fin 64) : ridx_main_v23 (ix2 r c) k = ix2 k c :=
  funext fun a => Fin.ext (by match a with | ⟨0, _⟩ => rfl | ⟨1, _⟩ => rfl)

/-- The first bias spread over the nodes is read on its one row, -/
theorem first_bias_rows (r : Fin 100000) (c : Fin 64) : idx_main_v20 (ix2 r c) = ix2 (0 : Fin 1) c :=
  funext fun a => Fin.ext (by match a with | ⟨0, _⟩ => rfl | ⟨1, _⟩ => rfl)

/-- and that row at unit `c` is the bias at `c`. -/
theorem first_bias_row (u : Fin 1) (c : Fin 64) : idx_main_v19 (ix2 u c) = ix1 c :=
  funext fun a => Fin.ext (by match a with | ⟨0, _⟩ => rfl)

/-- The same for the second bias. -/
theorem second_bias_rows (r : Fin 100000) (c : Fin 64) : idx_main_v25 (ix2 r c) = ix2 (0 : Fin 1) c :=
  funext fun a => Fin.ext (by match a with | ⟨0, _⟩ => rfl | ⟨1, _⟩ => rfl)

theorem second_bias_row (u : Fin 1) (c : Fin 64) : idx_main_v24 (ix2 u c) = ix1 c :=
  funext fun a => Fin.ext (by match a with | ⟨0, _⟩ => rfl)

/-! ## The result -/

/-- The reference's last stage is the layer function of the arguments, its own neighbourhood-sum stage the sums. -/
theorem result_is_layer (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v27 (F := Ideal) x0 x1 x2 x3 x4 x5
      = Cert.Layer.out x0 (val_main_v14 (F := Ideal) x0 x1) x2 x3 x4 x5 := by
  funext i
  obtain ⟨r, c, rfl⟩ : ∃ (r : Fin 100000) (c : Fin 64), i = ix2 r c := ⟨i 0, i 1, eq_ix2 i⟩
  rw [Cert.Layer.out_ix2]
  unfold Cert.Layer.hidden
  simp only [val_main_v27_apply, val_main_v26_apply, val_main_v23_apply, val_main_v25_apply, val_main_v24_apply,
    val_main_call2_v0_apply, val_main_call2_cst_apply, val_main_v22_apply, val_main_v21_apply, val_main_v18_apply,
    val_main_v20_apply, val_main_v19_apply, val_main_call1_v0_apply, val_main_call1_cst_apply, val_main_v17_apply,
    val_main_v16_apply, val_main_v15_apply, val_main_cst_1_apply,
    first_left, first_right, second_left, second_right, first_bias_rows, first_bias_row, second_bias_rows, second_bias_row,
    Ideal.maximumf_def, Ideal.addf_def, Ideal.mulf_def, Ideal.ofBits_def, Ideal.ofBits_zero_f32, Ideal.ofBits_one_f32, one_mul]

end Cert.ReferenceIdeal.Dense

end
-- ==== Proof.lean ====
/-
  One graph-isomorphism layer over 100000 nodes of width 64 and 1600000 edges: the blocked kernel and the plain
  reference compute the same array over the extended reals.

  Both programs first form the neighbourhood sums on the host, by the same operations on the same arguments: each
  edge's source row of the features is gathered, its positive part taken, and added into the edge's target row of a zero
  array. Then the layer: with `h r = x r + agg r` (the reference writes `1 · x r + agg r`), the result at node `r`,
  unit `c` is

      max (∑ k, max (∑ j, h r j · W1 j k + b1 k) 0 · W2 k c + b2 c) 0.

  The kernel computes it for 5000 nodes at a time on a grid of 20 points, narrowing the two products' operands to a
  shorter float format (the identity on extended reals) and starting each product from zero; the reference computes it
  for all nodes at once. A node's row of the result depends on that node's rows of the features and of the sums only, so
  every block of rows the kernel writes is the same block of ONE array, and the 20 blocks tile it. The only law of
  arithmetic used between the two sides is `1 · x = x`, which holds for every extended real: the inputs' finiteness is
  not needed. The neighbourhood sums are never opened: the kernel's launch finds in their array exactly the reference's
  own neighbourhood-sum stage of the launch arguments.

  The modules: Layer (the layer function), LibContract (a one-axis contraction as a sum over its coordinate), Payload (the
  kernel body's result at an entry of a block), Entry (the arrays the host wrote before the launch), Grid (which block each window stages at a point), Staged (the
  staged blocks read off their arrays), Written (what a point writes back), Tiling (the blocks tile the array, and the
  kernel's run), Dense (the reference's result is the layer function).
-/
import proofs.«164053_j88364657148500_1_alg».proof.Defs
import proofs.«164053_j88364657148500_1_alg».proof.Proof.Gen.Kernel
import proofs.«164053_j88364657148500_1_alg».proof.Proof.Gen.Kernel.Skeleton
import proofs.«164053_j88364657148500_1_alg».proof.Proof.Gen.Kernel.Launch
import proofs.«164053_j88364657148500_1_alg».proof.Proof.Gen.Kernel.Points
import proofs.«164053_j88364657148500_1_alg».proof.Proof.Gen.Kernel.Frame
import proofs.«164053_j88364657148500_1_alg».proof.Proof.Gen.KernelIdeal
import proofs.«164053_j88364657148500_1_alg».proof.Proof.Gen.KernelIdeal.Skeleton
import proofs.«164053_j88364657148500_1_alg».proof.Proof.Gen.KernelIdeal.Launch
import proofs.«164053_j88364657148500_1_alg».proof.Proof.Gen.KernelIdeal.Points
import proofs.«164053_j88364657148500_1_alg».proof.Proof.Gen.KernelIdeal.Frame
import proofs.«164053_j88364657148500_1_alg».proof.Proof.Gen.ReferenceIdeal
import proofs.«164053_j88364657148500_1_alg».proof.Proof.Gen.Pre_finite_inputs
import proofs.«164053_j88364657148500_1_alg».proof.Proof.Gen.KernelIdeal.Value
import proofs.«164053_j88364657148500_1_alg».proof.Proof.Gen.ReferenceIdeal.Run
import proofs.«164053_j88364657148500_1_alg».proof.Proof.Gen.ReferenceIdeal.Read
import proofs.«164053_j88364657148500_1_alg».proof.Proof.Tiling
import proofs.«164053_j88364657148500_1_alg».proof.Proof.Dense
import Idealize.ShloMosaic.Adequacy
import Idealize.ShloMosaic.Init

noncomputable section

namespace Cert.Proof

open Idealize.ShloMosaic Idealize.SL.Sem

/-- The kernel as printed runs, and leaves its six arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the six arguments both programs end with the layer function of those arguments in
    their result arrays, the neighbourhood sums in it the reference's stage of the features and the edge list. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Dense.result_is_layer,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
